-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x1024 : Shape := ⟨4, ![4, 12, 1024, 1024]⟩
abbrev S_ : Shape := ⟨0, ![]⟩

class Facts : Prop where
  bcast_S_S4x12x1024x1024 : S_.BroadcastsInDim S4x12x1024x1024 (![] : Fin 0 → Fin S4x12x1024x1024.rank)
  reducesTo_S4x12x1024x1024_S_d0_1_2_3 : S4x12x1024x1024.ReducesTo [0, 1, 2, 3] S_
  h_S_ : 0 < S_.numel

variable [Facts]

def fn {F : FTy → Type} [FloatOps F] (main_arg0 : FVec F S4x12x1024x1024 .f32) : IVec S_ 1 :=
  let main_v0 : FVec F S4x12x1024x1024 .f32 := Host.absf main_arg0
  let main_cst : FVec F S_ .f32 := constant S_ .f32 0x7F800000#32
  let main_v1 : FVec F S4x12x1024x1024 .f32 := broadcastInDim S4x12x1024x1024 ![] bcast_S_S4x12x1024x1024 main_cst
  let main_v2 : IVec S4x12x1024x1024 1 := cmpf .olt main_v0 main_v1
  let main_c : IVec S_ 1 := constantI S_ 1 1#1
  let main_v3 : IVec S_ 1 := (fun x v => Host.reduce IntOp.andi x v reducesTo_S4x12x1024x1024_S_d0_1_2_3 h_S_) main_v2 main_c
  main_v3
-- ==== Kernel.lean ====
abbrev S4x12x1024x1024 : Shape := ⟨4, ![4, 12, 1024, 1024]⟩
abbrev S49152x1024 : Shape := ⟨2, ![49152, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S4x12x1024x1024, .f32⟩
  | .hbm, ⟨1, _⟩ => ⟨S49152x1024, .f32⟩
  | .hbm, ⟨2, _⟩ => ⟨S49152x1024, .f32⟩
  | .hbm, ⟨3, _⟩ => ⟨S4x12x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S4x12x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x12x1024x1024_S49152x1024 : S4x12x1024x1024.ShapeCasts S49152x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S49152x1024_S4x12x1024x1024 : S49152x1024.ShapeCasts S4x12x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S49152x1024.size a
  hwx0_0 : ∀ i : grid0.Coords, EltTy.bits .f32 = 32 ∨ (Rect.block (s := S49152x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S49152x1024.size a
  hwx0_1 : ∀ i : grid0.Coords, EltTy.bits .f32 = 32 ∨ (Rect.block (s := S49152x1024) S1024x1024.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x12x1024x1024 : Shape := ⟨4, ![4, 12, 1024, 1024]⟩
abbrev S_ : Shape := ⟨0, ![]⟩
abbrev S4x12x1024 : Shape := ⟨3, ![4, 12, 1024]⟩
abbrev S4x12x1024x1 : Shape := ⟨4, ![4, 12, 1024, 1]⟩

abbrev nBuf : Space → Nat
  | .hbm => 105
  | .vmem => 0
  | .smem => 0
  | _ => 0

abbrev bufTy : (tb : Table) → Fin (tcTables nBuf tb) → BufTy
  | .hbm, ⟨0, _⟩ => ⟨S4x12x1024x1024, .f32⟩
  | .hbm, ⟨1, _⟩ => ⟨S_, .f32⟩
  | .hbm, ⟨2, _⟩ => ⟨S4x12x1024x1024, .f32⟩
  | .hbm, ⟨3, _⟩ => ⟨S4x12x1024x1024, .f32⟩
  | .hbm, ⟨4, _⟩ => ⟨S_, .f32⟩
  | .hbm, ⟨5, _⟩ => ⟨S4x12x1024, .f32⟩
  | .hbm, ⟨6, _⟩ => ⟨S4x12x1024x1, .f32⟩
  | .hbm, ⟨7, _⟩ => ⟨S4x12x1024x1024, .f32⟩
  | .hbm, ⟨8, _⟩ => ⟨S4x12x1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x12x1024x1024, .f32⟩
  | .hbm, ⟨16, _⟩ => ⟨S4x12x1024x1024, .f32⟩
  | .hbm, ⟨17, _⟩ => ⟨S4x12x1024x1024, .f32⟩
  | .hbm, ⟨18, _⟩ => ⟨S4x12x1024x1024, .f32⟩
  | .hbm, ⟨19, _⟩ => ⟨S4x12x1024x1024, .f32⟩
  | .hbm, ⟨20, _⟩ => ⟨S4x12x1024x1024, .f32⟩
  | .hbm, ⟨21, _⟩ => ⟨S4x12x1024x1024, .f32⟩
  | .hbm, ⟨22, _⟩ => ⟨S4x12x1024x1024, .f32⟩
  | .hbm, ⟨23, _⟩ => ⟨S4x12x1024x1024, .f32⟩
  | .hbm, ⟨24, _⟩ => ⟨S4x12x1024x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x12x1024x1024, .f32⟩
  | .hbm, ⟨36, _⟩ => ⟨S4x12x1024x1024, .f32⟩
  | .hbm, ⟨37, _⟩ => ⟨S4x12x1024x1024, .f32⟩
  | .hbm, ⟨38, _⟩ => ⟨S4x12x1024x1024, .f32⟩
  | .hbm, ⟨39, _⟩ => ⟨S4x12x1024x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x12x1024x1024, .f32⟩
  | .hbm, ⟨47, _⟩ => ⟨S4x12x1024x1024, .f32⟩
  | .hbm, ⟨48, _⟩ => ⟨S_, .f32⟩
  | .hbm, ⟨49, _⟩ => ⟨S4x12x1024x1024, .f32⟩
  | .hbm, ⟨50, _⟩ => ⟨S4x12x1024x1024, .f32⟩
  | .hbm, ⟨51, _⟩ => ⟨S4x12x1024x1024, .f32⟩
  | .hbm, ⟨52, _⟩ => ⟨S4x12x1024x1024, .f32⟩
  | .hbm, ⟨53, _⟩ => ⟨S4x12x1024x1024, .f32⟩
  | .hbm, ⟨54, _⟩ => ⟨S4x12x1024x1024, .f32⟩
  | .hbm, ⟨55, _⟩ => ⟨S_, .f32⟩
  | .hbm, ⟨56, _⟩ => ⟨S4x12x1024x1024, .f32⟩
  | .hbm, ⟨57, _⟩ => ⟨S4x12x1024x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x12x1024x1024, .f32⟩
  | .hbm, ⟨73, _⟩ => ⟨S4x12x1024x1024, .f32⟩
  | .hbm, ⟨74, _⟩ => ⟨S4x12x1024x1024, .f32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S4x12x1024x1024, .f32⟩
  | .hbm, ⟨79, _⟩ => ⟨S4x12x1024x1024, .f32⟩
  | .hbm, ⟨80, _⟩ => ⟨S_, .f32⟩
  | .hbm, ⟨81, _⟩ => ⟨S4x12x1024x1024, .f32⟩
  | .hbm, ⟨82, _⟩ => ⟨S4x12x1024x1024, .f32⟩
  | .hbm, ⟨83, _⟩ => ⟨S4x12x1024x1024, .f32⟩
  | .hbm, ⟨84, _⟩ => ⟨S4x12x1024x1024, .f32⟩
  | .hbm, ⟨85, _⟩ => ⟨S_, .f32⟩
  | .hbm, ⟨86, _⟩ => ⟨S4x12x1024, .f32⟩
  | .hbm, ⟨87, _⟩ => ⟨S4x12x1024x1, .f32⟩
  | .hbm, ⟨88, _⟩ => ⟨S_, .f32⟩
  | .hbm, ⟨89, _⟩ => ⟨S4x12x1024x1, .f32⟩
  | .hbm, ⟨90, _⟩ => ⟨S4x12x1024x1, .f32⟩
  | .hbm, ⟨91, _⟩ => ⟨S4x12x1024x1, .f32⟩
  | .hbm, ⟨92, _⟩ => ⟨S4x12x1024x1, .f32⟩
  | .hbm, ⟨93, _⟩ => ⟨S4x12x1024x1, .f32⟩
  | .hbm, ⟨94, _⟩ => ⟨S4x12x1024x1024, .f32⟩
  | .hbm, ⟨95, _⟩ => ⟨S4x12x1024x1024, .f32⟩
  | .hbm, ⟨96, _⟩ => ⟨S_, .f32⟩
  | .hbm, ⟨97, _⟩ => ⟨S4x12x1024x1024, .f32⟩
  | .hbm, ⟨98, _⟩ => ⟨S4x12x1024x1024, .f32⟩
  | .hbm, ⟨99, _⟩ => ⟨S4x12x1024x1024, .f32⟩
  | .hbm, ⟨100, _⟩ => ⟨S4x12x1024x1024, .f32⟩
  | .hbm, ⟨101, _⟩ => ⟨S4x12x1024x1024, .f32⟩
  | .hbm, ⟨102, _⟩ => ⟨S_, .f32⟩
  | .hbm, ⟨103, _⟩ => ⟨S4x12x1024x1024, .f32⟩
  | .hbm, ⟨104, _⟩ => ⟨S4x12x1024x1024, .f32⟩
  | _, _ => ⟨S4x12x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_cst_7 : Ref sig .tc := ⟨.hbm, 30, rfl⟩
abbrev main_v21 : Ref sig .tc := ⟨.hbm, 31, rfl⟩
abbrev main_cst_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_cst_10 : Ref sig .tc := ⟨.hbm, 41, rfl⟩
abbrev main_v29 : Ref sig .tc := ⟨.hbm, 42, rfl⟩
abbrev main_cst_11 : Ref sig .tc := ⟨.hbm, 43, rfl⟩
abbrev main_v30 : Ref sig .tc := ⟨.hbm, 44, rfl⟩
abbrev main_cst_12 : Ref sig .tc := ⟨.hbm, 45, rfl⟩
abbrev main_v31 : Ref sig .tc := ⟨.hbm, 46, rfl⟩
abbrev main_v32 : Ref sig .tc := ⟨.hbm, 47, rfl⟩
abbrev main_cst_13 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_14 : Ref sig .tc := ⟨.hbm, 55, rfl⟩
abbrev main_v39 : Ref sig .tc := ⟨.hbm, 56, rfl⟩
abbrev main_v40 : Ref sig .tc := ⟨.hbm, 57, rfl⟩
abbrev main_cst_15 : Ref sig .tc := ⟨.hbm, 58, rfl⟩
abbrev main_v41 : Ref sig .tc := ⟨.hbm, 59, rfl⟩
abbrev main_cst_16 : Ref sig .tc := ⟨.hbm, 60, rfl⟩
abbrev main_v42 : Ref sig .tc := ⟨.hbm, 61, rfl⟩
abbrev main_cst_17 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_18 : Ref sig .tc := ⟨.hbm, 67, rfl⟩
abbrev main_v47 : Ref sig .tc := ⟨.hbm, 68, rfl⟩
abbrev main_cst_19 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c : Ref sig .tc := ⟨.hbm, 75, rfl⟩
abbrev main_c_20 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_21 : Ref sig .tc := ⟨.hbm, 85, rfl⟩
abbrev main_v56 : Ref sig .tc := ⟨.hbm, 86, rfl⟩
abbrev main_v57 : Ref sig .tc := ⟨.hbm, 87, rfl⟩
abbrev main_cst_22 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_23 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_24 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  bcast_S_S4x12x1024x1024 : S_.BroadcastsInDim S4x12x1024x1024 (![] : Fin 0 → Fin S4x12x1024x1024.rank)
  reducesTo_S4x12x1024x1024_S4x12x1024_d3 : S4x12x1024x1024.ReducesTo [3] S4x12x1024
  h_S_ : 0 < S_.numel
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  reducesTo_S4x12x1024x1024_S_d0_1_2_3 : S4x12x1024x1024.ReducesTo [0, 1, 2, 3] S_
  bcast_S_S4x12x1024x1 : S_.BroadcastsInDim S4x12x1024x1 (![] : Fin 0 → Fin S4x12x1024x1.rank)

variable [Facts₀]

class Facts : Prop extends Facts₀ where

variable [Facts]
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.EntryArith.lean ====
/-
  The arithmetic of one entry of an integer softmax, on the extended reals (program-independent: imports only the
  library).

  An integer softmax computes an integer exponential `e ≥ 0` of each entry, requantises it by a ratio `ρ` of two
  scales, rounds to the nearest integer, clamps to sixteen bits, and normalises by the row sum. With the constants of
  this file the ratio is tiny against every value `e` can take. On the one side `e ≤ 2927744 · 2^30` and
  `ρ = 8607959 / 2^111`, so `e · ρ < 2^-35`. On the other side `ρ = s / (M / 32767)` where `M` is at least the largest
  `e` of the whole array and `s < 2^-51`, so `e · ρ ≤ 32767 · s < 2^-36`, and `e · ρ = 0` when `M` is infinite. Either
  way `0 ≤ e · ρ < 1/2`: the rounding gives `0`, the clamp keeps `0`, and the normalisation multiplies by that `0`.
  This file states the two per-entry functions and the two tails as plain functions of extended reals and proves that
  they vanish; no array and no program enters.
-/
import Idealize.ShloMosaic.PureOps.Ideal

noncomputable section

namespace Cert.EntryArith

open Idealize.ShloMosaic

/-! ## The float literals, as the reals their patterns denote -/

theorem ofBits_zero : Ideal.ofBits .f32 0x00000000#32 = ((0 : ℝ) : EReal) := by simp [Ideal.ofBits, Ideal.ieee]
theorem ofBits_clip : Ideal.ofBits .f32 0xC6A66800#32 = ((-21300 : ℝ) : EReal) := by
  simp [Ideal.ofBits, Ideal.ieee, -EReal.coe_mul]; norm_num
theorem ofBits_x0 : Ideal.ofBits .f32 0xC4318000#32 = ((-710 : ℝ) : EReal) := by
  simp [Ideal.ofBits, Ideal.ieee, -EReal.coe_mul]; norm_num
theorem ofBits_b : Ideal.ofBits .f32 0x452D4000#32 = ((2772 : ℝ) : EReal) := by
  simp [Ideal.ofBits, Ideal.ieee, -EReal.coe_mul]; norm_num
theorem ofBits_c : Ideal.ofBits .f32 0x4A32B200#32 = ((2927744 : ℝ) : EReal) := by
  simp [Ideal.ofBits, Ideal.ieee, -EReal.coe_mul]; norm_num
theorem ofBits_ratio : Ideal.ofBits .f32 0x138358D7#32 = ((8607959 / 2 ^ 111 : ℝ) : EReal) := by
  simp [Ideal.ofBits, Ideal.ieee, -EReal.coe_mul]; norm_num
theorem ofBits_lo : Ideal.ofBits .f32 0xC7000000#32 = ((-32768 : ℝ) : EReal) := by
  simp [Ideal.ofBits, Ideal.ieee, -EReal.coe_mul]; norm_num
theorem ofBits_hi : Ideal.ofBits .f32 0x46FFFE00#32 = ((32767 : ℝ) : EReal) := by
  simp [Ideal.ofBits, Ideal.ieee, -EReal.coe_mul]; norm_num
theorem ofBits_coef : Ideal.ofBits .f32 0x3EB75FA1#32 = ((12017569 / 2 ^ 25 : ℝ) : EReal) := by
  simp [Ideal.ofBits, Ideal.ieee, -EReal.coe_mul]; norm_num
theorem ofBits_sf : Ideal.ofBits .f32 0x3A800000#32 = ((1 / 1024 : ℝ) : EReal) := by
  simp [Ideal.ofBits, Ideal.ieee, -EReal.coe_mul]; norm_num
theorem ofBits_two30 : Ideal.ofBits .f32 0x4E800000#32 = ((1073741824 : ℝ) : EReal) := by
  simp [Ideal.ofBits, Ideal.ieee, -EReal.coe_mul]; norm_num
theorem ofBits_tiny : Ideal.ofBits .f32 0x322BCC77#32 = ((11258999 / 2 ^ 50 : ℝ) : EReal) := by
  simp [Ideal.ofBits, Ideal.ieee, -EReal.coe_mul]; norm_num
theorem ofBits_two24 : Ideal.ofBits .f32 0x4B800000#32 = ((16777216 : ℝ) : EReal) := by
  simp [Ideal.ofBits, Ideal.ieee, -EReal.coe_mul]; norm_num

/-! ## Small facts about the extended reals -/

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

/-- An extended real between two reals is a real. -/
theorem exists_coe_of_between {w : EReal} {lo hi : ℝ} (h0 : (lo : EReal) ≤ w) (h1 : w ≤ (hi : EReal)) :
    ∃ r : ℝ, w = (r : EReal) ∧ lo ≤ r ∧ r ≤ hi := by
  induction w using EReal.rec with
  | bot => exact absurd h0 (not_le.2 (EReal.bot_lt_coe lo))
  | top => exact absurd h1 (not_le.2 (EReal.coe_lt_top hi))
  | coe r => exact ⟨r, rfl, EReal.coe_le_coe_iff.1 h0, EReal.coe_le_coe_iff.1 h1⟩

/-- Rounding to the nearest integer, ties to even, sends every real in `[0, 1/2)` to `0`. -/
theorem roundHalfEven_small (y : ℝ) (h0 : 0 ≤ y) (h1 : y < 1 / 2) : Ideal.roundHalfEven y = 0 := by
  have hf : ⌊y⌋ = 0 := Int.floor_eq_zero_iff.2 ⟨h0, by linarith⟩
  unfold Ideal.roundHalfEven
  simp only [hf, Int.cast_zero, sub_zero]
  rw [if_pos h1]

/-! ## The exponent word -/

/-- The conversion to a signed word of an integer between `0` and `30` is that integer's word. -/
theorem fptosi_int (n : ℤ) (h0 : 0 ≤ n) (h1 : n ≤ 30) : Ideal.fptosi 32 (((n : ℝ)) : EReal) = BitVec.ofInt 32 n := by
  unfold Ideal.fptosi
  rw [Ideal.toIntClamped_coe]
  have h : (0 : ℝ) ≤ (n : ℝ) := by exact_mod_cast h0
  rw [if_pos h, Int.floor_intCast]
  congr 1
  have e1 : min (((2 ^ (32 - 1) : ℕ) : ℤ) - 1) n = n := min_eq_right (by norm_num; omega)
  rw [e1]
  exact max_eq_right (by norm_num; omega)

/-- The word `(127 + (30 - n)) <<< 23` is the float `2^(30-n)`: a biased exponent `157 - n` over a zero fraction. -/
theorem pow2_word_nat (k : ℕ) (h1 : k ≤ 30) :
    Ideal.ofBits .f32 (IntOp.shli .vector (IntOp.addi 127#32 (IntOp.subi 30#32 (BitVec.ofNat 32 k))) 23#32)
      = (((2 : ℝ) ^ (30 - k) : ℝ) : EReal) := by
  interval_cases k <;>
    simp [FTy.bits, IntOp.shli, IntOp.addi, IntOp.subi, Ideal.ofBits, Ideal.ieee, -EReal.coe_mul, -EReal.coe_pow] <;>
    norm_num

theorem pow2_word (n : ℤ) (h0 : 0 ≤ n) (h1 : n ≤ 30) :
    ∃ p : ℝ, Ideal.ofBits .f32 (IntOp.shli .vector (IntOp.addi 127#32 (IntOp.subi 30#32 (BitVec.ofInt 32 n))) 23#32)
      = (p : EReal) ∧ 0 ≤ p ∧ p ≤ 2 ^ 30 := by
  obtain ⟨k, rfl⟩ := Int.eq_ofNat_of_zero_le h0
  have hk : k ≤ 30 := by omega
  refine ⟨(2 : ℝ) ^ (30 - k), ?_, by positivity, pow_le_pow_right₀ (by norm_num) (by omega)⟩
  rw [BitVec.ofInt_natCast]
  exact pow2_word_nat k hk

/-! ## The kernel's side: one entry from the scaled entry `a` and its row's maximum `m` -/

/-- The clamped, requantised integer exponential of one entry: `u = max (a - m) (-21300)`, `q = ⌊u / -710⌋`,
    `r = u + 710 q`, `z = r (r + 2772) + 2927744`, `e = max ⌊z · 2^(30-q)⌋ 0` with the power built as a float word from
    `q`, then `e · ρ` rounded and clamped to `[-32768, 32767]`. -/
def kq (a m : EReal) : EReal :=
  let u := max (a - m) (Ideal.ofBits .f32 0xC6A66800#32)
  let q := Ideal.liftRound Int.floor (Ideal.div u (Ideal.ofBits .f32 0xC4318000#32))
  let r := u - Ideal.ofBits .f32 0xC4318000#32 * q
  let z := r * (r + Ideal.ofBits .f32 0x452D4000#32) + Ideal.ofBits .f32 0x4A32B200#32
  let p := Ideal.ofBits .f32 (IntOp.shli .vector (IntOp.addi 127#32 (IntOp.subi 30#32 (Ideal.fptosi 32 q))) 23#32)
  let e := max (Ideal.liftRound Int.floor (z * p)) (Ideal.ofBits .f32 0x00000000#32)
  min (Ideal.ofBits .f32 0x46FFFE00#32)
    (max (Ideal.ofBits .f32 0xC7000000#32) (Ideal.liftRound Ideal.roundHalfEven (e * Ideal.ofBits .f32 0x138358D7#32)))

/-- An entry that is at most its row's maximum requantises to `0`: `u ∈ [-21300, 0]` is a real whatever `a` and `m`
    are, `q ∈ {0, …, 30}`, `r ∈ (-710, 0]` so `z ≤ 2927744`, the power is at most `2^30`, and
    `2927744 · 2^30 · 8607959 / 2^111 < 1/2`. -/
theorem kq_eq_zero (a m : EReal) (h : a ≤ m) : kq a m = 0 := by
  have hle : a - m ≤ ((0 : ℝ) : EReal) := by
    rw [EReal.coe_zero]; exact EReal.sub_le_of_le_add (by rwa [zero_add])
  obtain ⟨u, hu, hu0, hu1⟩ : ∃ u : ℝ, max (a - m) (Ideal.ofBits .f32 0xC6A66800#32) = (u : EReal) ∧ -21300 ≤ u ∧ u ≤ 0 := by
    rw [ofBits_clip]
    exact exists_coe_of_between (le_max_right _ _) (max_le hle (EReal.coe_le_coe_iff.2 (by norm_num)))
  -- the quotient by -710 and its floor
  obtain ⟨n, hn, hn0, hn1, hr0, hr1⟩ : ∃ n : ℤ, ⌊u * (1 / (-710 : ℝ))⌋ = n ∧ 0 ≤ n ∧ n ≤ 30
      ∧ u - (-710) * (n : ℝ) ≤ 0 ∧ 0 ≤ u - (-710) * (n : ℝ) + 2772 := by
    have hx : u * (1 / (-710 : ℝ)) = -u / 710 := by ring
    have hfl := Int.floor_le (u * (1 / (-710 : ℝ)))
    have hlt := Int.lt_floor_add_one (u * (1 / (-710 : ℝ)))
    have h30 : -u / 710 ≤ 30 := by rw [div_le_iff₀ (by norm_num)]; linarith
    refine ⟨_, rfl, Int.floor_nonneg.2 (by rw [hx]; exact div_nonneg (by linarith) (by norm_num)), ?_, ?_, ?_⟩
    · have : ((⌊u * (1 / (-710 : ℝ))⌋ : ℤ) : ℝ) ≤ ((30 : ℤ) : ℝ) := by push_cast; linarith
      exact_mod_cast this
    · have := (le_div_iff₀ (by norm_num : (0 : ℝ) < 710)).1 (hfl.trans hx.le); linarith
    · have := (div_lt_iff₀ (by norm_num : (0 : ℝ) < 710)).1 (lt_of_eq_of_lt hx.symm hlt); linarith
  obtain ⟨p, hp, hp0, hp1⟩ := pow2_word n hn0 hn1
  unfold kq
  dsimp only
  rw [hu, ofBits_x0, Ideal.div_coe (by norm_num : (-710 : ℝ) ≠ 0), ← EReal.coe_mul, Ideal.liftRound_coe, hn,
    fptosi_int n hn0 hn1, hp]
  simp only [ofBits_b, ofBits_c, ofBits_zero, ofBits_ratio, ofBits_lo, ofBits_hi, ← EReal.coe_mul, ← EReal.coe_add,
    ← EReal.coe_sub, Ideal.liftRound_coe, ← coe_max, ← coe_min]
  rw [roundHalfEven_small]
  · norm_num
  · exact mul_nonneg (le_max_right _ _) (by norm_num)
  · have hz : (u - (-710) * (n : ℝ)) * (u - (-710) * (n : ℝ) + 2772) + 2927744 ≤ 2927744 := by
      nlinarith [mul_nonneg (neg_nonneg.2 hr0) hr1]
    refine lt_of_le_of_lt (mul_le_mul_of_nonneg_right (max_le ((Int.floor_le _).trans ?_) (by positivity))
      (by norm_num)) (by norm_num : (2927744 * 2 ^ 30 : ℝ) * (8607959 / 2 ^ 111) < 1 / 2)
    calc _ ≤ 2927744 * p := mul_le_mul_of_nonneg_right hz hp0
      _ ≤ 2927744 * 2 ^ 30 := mul_le_mul_of_nonneg_left hp1 (by norm_num)

/-! ## The reference's side: one entry from its exponential `w` and the array's largest and smallest `g`, `g'` -/

/-- The reference's product `e · ρ` at one entry: `e = max w 0`, `ρ = s / (M / 32767)` with
    `s = coef · 2^-10 · 2^-10 / 2^30` and `M = max (max |g'| |g|) tiny`. -/
def ry (w g g' : EReal) : EReal :=
  max w (Ideal.ofBits .f32 0x00000000#32)
    * Ideal.div
        (Ideal.div (Ideal.ofBits .f32 0x3EB75FA1#32 * Ideal.ofBits .f32 0x3A800000#32 * Ideal.ofBits .f32 0x3A800000#32)
          (Ideal.ofBits .f32 0x4E800000#32))
        (Ideal.div (max (max (max g' (-g')) (max g (-g))) (Ideal.ofBits .f32 0x322BCC77#32))
          (Ideal.ofBits .f32 0x46FFFE00#32))

/-- The reference's requantised exponential of one entry: the product, plus the difference between its rounded and
    clamped value and itself (the straight-through form of rounding). -/
def rq (w g g' : EReal) : EReal :=
  ry w g g' + (min (((32767#32 : BitVec 32).toInt : ℝ) : EReal)
      (max (((4294934528#32 : BitVec 32).toInt : ℝ) : EReal) (Ideal.liftRound Ideal.roundHalfEven (ry w g g')))
    - ry w g g')

/-- When `g` is at least the entry's `e`, the product is a real in `[0, 1/2)`: with `M` infinite the ratio is `0`; with
    `M` real, `e ≤ g ≤ |g| ≤ M` so `e / M ≤ 1` and the product is at most `32767 · s < 1/2`. -/
theorem ry_small (w g g' : EReal) (h : max w (Ideal.ofBits .f32 0x00000000#32) ≤ g) :
    ∃ y : ℝ, ry w g g' = (y : EReal) ∧ 0 ≤ y ∧ y < 1 / 2 := by
  unfold ry
  have hs : Ideal.div (Ideal.ofBits .f32 0x3EB75FA1#32 * Ideal.ofBits .f32 0x3A800000#32 * Ideal.ofBits .f32 0x3A800000#32)
      (Ideal.ofBits .f32 0x4E800000#32)
      = ((12017569 / 2 ^ 25 * (1 / 1024) * (1 / 1024) * (1 / 1073741824) : ℝ) : EReal) := by
    rw [ofBits_coef, ofBits_sf, ofBits_two30, Ideal.div_coe (by norm_num : (1073741824 : ℝ) ≠ 0), ← EReal.coe_mul,
      ← EReal.coe_mul, ← EReal.coe_mul]
  have he0 : ((0 : ℝ) : EReal) ≤ max w (Ideal.ofBits .f32 0x00000000#32) := by
    rw [ofBits_zero]; exact le_max_right _ _
  have hM : max w (Ideal.ofBits .f32 0x00000000#32)
      ≤ max (max (max g' (-g')) (max g (-g))) (Ideal.ofBits .f32 0x322BCC77#32) :=
    h.trans ((le_max_left g (-g)).trans ((le_max_right _ _).trans (le_max_left _ _)))
  have hMt : Ideal.ofBits .f32 0x322BCC77#32
      ≤ max (max (max g' (-g')) (max g (-g))) (Ideal.ofBits .f32 0x322BCC77#32) := le_max_right _ _
  rw [hs, ofBits_hi, Ideal.div_coe (by norm_num : (32767 : ℝ) ≠ 0)]
  generalize max w (Ideal.ofBits .f32 0x00000000#32) = e at he0 hM
  generalize max (max (max g' (-g')) (max g (-g))) (Ideal.ofBits .f32 0x322BCC77#32) = M at hM hMt
  rw [ofBits_tiny] at hMt
  induction M using EReal.rec with
  | bot => exact absurd hMt (not_le.2 (EReal.bot_lt_coe _))
  | top =>
    refine ⟨0, ?_, le_rfl, by norm_num⟩
    rw [EReal.top_mul_of_pos (EReal.coe_pos.2 (by norm_num)), Ideal.div, if_neg EReal.top_ne_zero, EReal.inv_top,
      mul_zero, mul_zero, EReal.coe_zero]
  | coe Mr =>
    have hMr : (11258999 / 2 ^ 50 : ℝ) ≤ Mr := EReal.coe_le_coe_iff.1 hMt
    have hMpos : 0 < Mr := lt_of_lt_of_le (by norm_num) hMr
    obtain ⟨er, rfl, her0, her1⟩ := exists_coe_of_between he0 hM
    have hne : Mr * (1 / 32767) ≠ 0 := ne_of_gt (by positivity)
    rw [← EReal.coe_mul, Ideal.div_coe hne, ← EReal.coe_mul, ← EReal.coe_mul]
    refine ⟨_, rfl, by positivity, ?_⟩
    have e1 : er * (12017569 / 2 ^ 25 * (1 / 1024) * (1 / 1024) * (1 / 1073741824) * (1 / (Mr * (1 / 32767))))
        = (er / Mr) * (12017569 / 2 ^ 25 * (1 / 1024) * (1 / 1024) * (1 / 1073741824) * 32767) := by
      field_simp
    rw [e1]
    have h1 : er / Mr ≤ 1 := (div_le_one hMpos).2 her1
    calc _ ≤ 1 * (12017569 / 2 ^ 25 * (1 / 1024) * (1 / 1024) * (1 / 1073741824) * 32767) :=
          mul_le_mul_of_nonneg_right h1 (by norm_num)
      _ < 1 / 2 := by norm_num

/-- So the reference's requantised exponential is `0` at such an entry: the product rounds to `0`, which the clamp keeps,
    and a real plus its own negative is `0`. -/
theorem rq_eq_zero (w g g' : EReal) (h : max w (Ideal.ofBits .f32 0x00000000#32) ≤ g) : rq w g g' = 0 := by
  obtain ⟨y, hy, hy0, hy1⟩ := ry_small w g g' h
  unfold rq
  rw [hy, Ideal.liftRound_coe, roundHalfEven_small y hy0 hy1]
  have h1 : ((32767#32 : BitVec 32).toInt : ℝ) = 32767 := by
    have e : (32767#32 : BitVec 32).toInt = 32767 := by decide
    rw [e]; norm_num
  have h2 : ((4294934528#32 : BitVec 32).toInt : ℝ) = -32768 := by
    have e : (4294934528#32 : BitVec 32).toInt = -32768 := by decide
    rw [e]; norm_num
  rw [h1, h2]
  simp only [← coe_max, ← coe_min, ← EReal.coe_sub, ← EReal.coe_add]
  norm_num

/-! ## The tails: the normalisation applied to a requantised value that is `0` -/

/-- The kernel's normalisation of a requantised value `v` by its row's factor `f`: `⌊(v · f) · 2^-24⌋ · 2^-8`. -/
def ktail (v f : EReal) : EReal :=
  Ideal.liftRound Int.floor ((v * f) * Ideal.ofBits .f32 0x33800000#32) * Ideal.ofBits .f32 0x3B800000#32

/-- At `v = 0` it is `0` whatever the factor (an infinite one included: `0 · ±∞ = 0` on the extended reals). -/
theorem ktail_zero (f : EReal) : ktail 0 f = 0 := by
  unfold ktail
  rw [zero_mul, zero_mul, ← EReal.coe_zero, Ideal.liftRound_coe, Int.floor_zero, Int.cast_zero]
  simp

/-- The reference's normalisation: `w = (v · f) / 2^24`, then `w` plus the difference between its floor and itself,
    times `2^-8`. -/
def rtail (v f : EReal) : EReal :=
  (Ideal.div (v * f) (Ideal.ofBits .f32 0x4B800000#32)
      + (Ideal.liftRound Int.floor (Ideal.div (v * f) (Ideal.ofBits .f32 0x4B800000#32))
          - Ideal.div (v * f) (Ideal.ofBits .f32 0x4B800000#32)))
    * Ideal.ofBits .f32 0x3B800000#32

theorem rtail_zero (f : EReal) : rtail 0 f = 0 := by
  unfold rtail
  rw [zero_mul, ofBits_two24, Ideal.div_coe (by norm_num : (16777216 : ℝ) ≠ 0), zero_mul, ← EReal.coe_zero,
    Ideal.liftRound_coe, Int.floor_zero, Int.cast_zero]
  simp

end Cert.EntryArith

end
-- ==== Proof.KernelZero.lean ====
/-
  What the kernel's program leaves in its result: the zero array.

  One grid point loads a block of 1024 rows of 1024 entries, scales it by 1024, takes each row's maximum, and passes
  every entry with its row's maximum through the per-entry arithmetic of `Cert.EntryArith`. An entry is at most its
  row's maximum (the maximum is the fold of `max` over the row), so its requantised exponential is `0`; the row sum
  of zeros never matters, because the normalisation multiplies the requantised value, `0`, by the row's factor. Every
  point therefore writes back a block of zeros. The 48 blocks tile the 49152 rows, so the array after the region is
  the zero array, and the host's reshape of it to four axes is the zero array again.
-/
import proofs.«177270_j38680475468054_2_alg».proof.Proof.Gen.KernelIdeal.Frame
import proofs.«177270_j38680475468054_2_alg».proof.Proof.LibRowOps
import proofs.«177270_j38680475468054_2_alg».proof.Proof.EntryArith
import Idealize.ShloMosaic.Lib.ValueIdx
import Idealize.ShloMosaic.Lib.Pipeline.Value
import Idealize.ShloMosaic.Lib.StableHlo.Run

noncomputable section

namespace Cert.KernelIdeal.ZeroValue

open Cert.KernelIdeal Cert.KernelIdeal.Gen Cert.EntryArith
open Idealize.ShloMosaic Idealize.ShloMosaic.TcCoe Idealize.SL.Sem Idealize.ShloMosaic.ValueIdx
open Idealize.ShloMosaic.Pipeline (Dat)

/-! ## The body's stored value -/

/-- The loaded block scaled by 1024. -/
def scaled (v0 : Vec Ideal S1024x1024 .f32) : FVec Ideal S1024x1024 .f32 :=
  mulf (shapeCast S1024x1024 v0 shapeCasts_S1024x1024_S1024x1024) (broadcast S1024x1024 (Scalar.ofBits .f32 0x44800000#32))

/-- Each row's maximum of the scaled block, spread back over the row. -/
def rowMax (v0 : Vec Ideal S1024x1024 .f32) : FVec Ideal S1024x1024 .f32 :=
  broadcastTo S1024x1024
    (shapeCast S1024x1
      (multiReduction .maximumf [1] S1024 (scaled v0) 0xFF800000#32 reduces_S1024x1024_S1024 (.inl rfl) rfl)
      shapeCasts_S1024_S1024x1)
    broadcasts_S1024x1_S1024x1024

/-- The requantised block at an entry is the per-entry function of the scaled entry and its row's maximum. -/
theorem pay2_apply (v0 : Vec Ideal S1024x1024 .f32) (i : S1024x1024.Idx) :
    k0_pay2 (F := Ideal) v0 i = kq (scaled v0 i) (rowMax v0 i) := rfl

/-- An entry of the scaled block is at most its row's maximum. -/
theorem scaled_le_rowMax (v0 : Vec Ideal S1024x1024 .f32) (p q : Fin 1024) :
    scaled v0 (ix2 p q) ≤ rowMax v0 (ix2 p q) := by
  have e1 : rowMax v0 (ix2 p q)
      = (Finset.univ : Finset (Fin 1024)).fold max (Ideal.ofBits .f32 0xFF800000#32) (fun k => scaled v0 (ix2 p k)) :=
    (Cert.RowOps.broadcastTo_a1_ab_apply _ broadcasts_S1024x1_S1024x1024 p q).trans
      ((Cert.RowOps.shapeCast_a_a1_apply _ shapeCasts_S1024_S1024x1 p 0).trans
        (Cert.RowOps.multiReduction_maximumf_row (scaled v0) 0xFF800000#32 reduces_S1024x1024_S1024 (.inl rfl) rfl p))
  rw [e1]
  exact (Finset.le_fold_max _).2 (Or.inr ⟨q, Finset.mem_univ _, le_rfl⟩)

/-- So the requantised block is the zero block, whatever was loaded. -/
theorem pay2_zero (v0 : Vec Ideal S1024x1024 .f32) (i : S1024x1024.Idx) : k0_pay2 (F := Ideal) v0 i = 0 := by
  obtain ⟨p, q, rfl⟩ : ∃ (p q : Fin 1024), i = ix2 p q := ⟨i 0, i 1, eq_ix2 i⟩
  exact (pay2_apply v0 _).trans (kq_eq_zero _ _ (scaled_le_rowMax v0 p q))

/-- The row's normalising factor `⌊2^32 / sum⌋`, spread over the row. -/
def rowFactor (v41 : FVec Ideal S1024x1 .f32) : FVec Ideal S1024x1024 .f32 :=
  broadcastTo S1024x1024 (floor (divf (broadcast S1024x1 (Scalar.ofBits .f32 0x4F800000#32)) v41))
    broadcasts_S1024x1_S1024x1024

/-- The stored value at an entry is the normalisation of the requantised value by the row's factor. -/
theorem pay1_apply (v39 : FVec Ideal S1024x1024 .f32) (v41 : FVec Ideal S1024x1 .f32) (i : S1024x1024.Idx) :
    k0_pay1 (F := Ideal) v39 v41 i = ktail (v39 i) (rowFactor v41 i) := rfl

/-- The body stores the zero block. -/
theorem store_zero (v0 : Vec Ideal S1024x1024 .f32) :
    k0_pay1 (F := Ideal) (k0_pay2 v0) (k0_pay3 v0) = fun _ => (0 : EReal) := by
  funext i
  refine (pay1_apply _ _ i).trans ?_
  rw [pay2_zero v0 i]
  exact ktail_zero _

end Cert.KernelIdeal.ZeroValue

end
-- ==== Proof.KernelRun.lean ====
/-
  From the blocks the grid points write back to the kernel program's result.

  Each of the 48 grid points writes back the zero block (`Cert.KernelIdeal.ZeroValue.store_zero`) to rows
  `1024 t … 1024 t + 1023` of the 49152-row array, so every index of the array lies in the block of point
  `row / 1024` and the array after the region is the zero array. The host then reshapes it to four axes: every entry
  of a reshaped zero array is an entry of the zero array.
-/
import proofs.«177270_j38680475468054_2_alg».proof.Proof.KernelZero

set_option maxRecDepth 16384

noncomputable section

namespace Cert.KernelIdeal.ZeroValue

open Cert.KernelIdeal Cert.KernelIdeal.Gen Cert.EntryArith
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- What point `t` writes back is block `t` of the zero array. -/
theorem flushed_zero (c : Dev nD) (t : Fin cfg0.N) :
    (dats m 0 c).flushed 1 t = ((cfg0.win 1).blk t).view.read (Elt Ideal) (fun _ => (0 : EReal)) := by
  show (cfg0.win 1).cut (grid0.coords t) ((dats m 0 c).after 1 t) = _
  rw [after0_1]
  unfold out0_1
  rw [View.canon_unit_zero offset_zero]
  simp only [View.ld_unit_zero (S := S1024x1024) offset_zero]
  rw [store_zero]
  rfl

/-- Every block index of the output is some grid point's. -/
theorem block_onto : ∀ q0 : Fin 48, ∃ t : Fin cfg0.N, win0_1.index t = ![q0.val, 0] :=
  (by decide +kernel : ∀ q0 : Fin 48, ∃ t : Fin grid0.N, win0_1.index t = ![q0.val, 0])

/-- An index of the array is in point `t`'s block iff each coordinate is in the block's range on its axis. -/
theorem mem_block (t : Fin cfg0.N) (i : S49152x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v1).slice (win0_1.rect t)).set ↔ _
  rw [View.set_slice_whole, Rect.mem_set_unit]
  exact Iff.rfl

/-- The blocks tile the array: row `r` is in the block of point `r / 1024`. -/
theorem covered (i : S49152x1024.Idx) :
    ∃ t : Fin cfg0.N, (cfg0.win 1).flush t = true ∧ i ∈ ((cfg0.win 1).blk t).view.set := by
  have hi0 : (i 0).val < 49152 := (i 0).isLt
  have hi1 : (i 1).val < 1024 := (i 1).isLt
  obtain ⟨t, ht⟩ := block_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- The output array after the region is the zero array. -/
theorem array_zero (c : Dev nD) : (dats m 0 c).arrAt 1 cfg0.N = fun _ => (0 : EReal) :=
  (dats m 0 c).arrAt_eq_of_cover 1 (fun _ => (0 : EReal)) (fun t _ => flushed_zero m c t) covered

/-- The host's reshape of the zero array is the zero array. -/
theorem tail_zero (c : Dev nD) :
    Pipeline.afterTail₀ cfgs (dats m) 0 (V0 m) [hostOps1] c main_v2 = fun _ => (0 : EReal) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = fun _ => (0 : EReal) :=
    (Pipeline.withArrays_arr spec0 launch0.win.arr_inj c _ _ 1).trans (array_zero m c)
  rw [e]
  funext i
  rfl

/-- The kernel program's run: every weakly fair execution ends with the result at the zero array and the argument
    kept. -/
theorem run : θ_run (defs (F := Ideal)) (onTc (τ := τ) (main (F := Ideal))) ⟨m, fun _ => 0, ρ⟩ fun r => ∀ c : Dev nD,
      r.2.mem ((c.tc : Thread nD τ).loc main_v2) = (fun _ => (0 : EReal))
      ∧ r.2.mem ((c.tc : Thread nD τ).loc main_arg0) = m ((c.tc : Thread nD τ).loc main_arg0) :=
  (θ_run (defs (F := Ideal)) _ _).mono
    (fun _ h c =>
      ⟨((h c).2 main_v2 (Pipeline.mem_restRefs_of main_v2 (by decide) (by decide))).trans (tail_zero m c),
        ((h c).2 main_arg0 (Pipeline.mem_restRefs_of main_arg0 (by decide) (by decide))).trans
          (W_main_arg0 m (dats m) c)⟩)
    (run_main m ρ)

end Cert.KernelIdeal.ZeroValue

end
-- ==== Proof.RefZero.lean ====
/-
  What the reference computes: the zero array.

  The reference requantises each entry's integer exponential `e = max w 0` by the ratio of two scales, the second of
  which is a multiple of `M`, the largest absolute value of `e` over the WHOLE array (floored at a tiny positive
  constant). Every entry's `e` is at most the array's maximum, which is at most `M`; by `Cert.EntryArith.rq_eq_zero`
  the requantised value is then `0` at every entry, and the normalisation that follows multiplies by that `0`.
-/
import proofs.«177270_j38680475468054_2_alg».proof.Proof.RefStages
import proofs.«177270_j38680475468054_2_alg».proof.Proof.EntryArith
import Idealize.ShloMosaic.Lib.StableHlo.Run

noncomputable section

namespace Cert.ReferenceIdeal.ZeroValue

open Cert.ReferenceIdeal Cert.ReferenceIdeal.Gen Cert.ReferenceIdeal.Read Cert.EntryArith
open Idealize.ShloMosaic Idealize.ShloMosaic.TcCoe Idealize.SL.Sem Idealize.ShloMosaic.StableHlo

variable (x0 : (⟨S4x12x1024x1024, .f32⟩ : BufTy).Contents (Elt Ideal))

/-- An entry's integer exponential is at most the maximum over the whole array: the reduction over all four axes is
    the fold of `max` over every index, and the entry is one of them. -/
theorem exp_le_max (i : S4x12x1024x1024.Idx) (j : S_.Idx) :
    max (val_main_v38 (F := Ideal) x0 i) (Ideal.ofBits .f32 0x00000000#32) ≤ val_main_v43 (F := Ideal) x0 j := by
  unfold val_main_v43
  rw [Host.reduce_eq_fold]
  refine (Finset.le_fold_max _).2 (Or.inr ⟨i, Finset.mem_filter.2 ⟨Finset.mem_univ _, funext fun d => d.elim0⟩, ?_⟩)
  rw [val_main_v40_apply, val_main_v39_apply, val_main_cst_14_apply]
  exact le_rfl

/-- The requantised exponential is `0` at every entry. -/
theorem requant_zero (i : S4x12x1024x1024.Idx) : val_main_v55 (F := Ideal) x0 i = 0 := by
  have hj := exp_le_max x0 i (idx_main_v50 i)
  rw [val_main_v55_apply, val_main_v54_apply, val_main_v53_apply, val_main_call1_v4_apply, val_main_call1_v3_apply,
    val_main_c_20_apply, val_main_call1_v2_apply, val_main_call1_v1_apply, val_main_call1_v0_apply, val_main_c_apply,
    val_main_v52_apply, val_main_v51_apply, val_main_v50_apply, val_main_v49_apply, val_main_v48_apply,
    val_main_cst_19_apply, val_main_v47_apply, val_main_cst_18_apply, val_main_v46_apply, val_main_v45_apply,
    val_main_v44_apply, val_main_v41_apply, val_main_cst_15_apply, val_main_v30_apply, val_main_cst_11_apply,
    val_main_v29_apply, val_main_cst_10_apply, val_main_cst_9_apply, val_main_v40_apply, val_main_v39_apply,
    val_main_cst_14_apply]
  exact rq_eq_zero _ _ _ hj

/-- So the result is the zero array: the normalisation of `0` by any factor. -/
theorem result_zero : val_main_v71 (F := Ideal) x0 = fun _ => (0 : EReal) := by
  funext i
  rw [val_main_v71_apply, val_main_v70_apply, val_main_cst_24_apply, val_main_v69_apply, val_main_v68_apply,
    val_main_v67_apply, val_main_v66_apply, val_main_v65_apply, val_main_cst_23_apply, val_main_v64_apply,
    requant_zero]
  exact rtail_zero _

/-! ## The run -/

set_option maxRecDepth 8192 in
set_option maxHeartbeats 41600000 in
/-- The fold of the reference's operations over the launch contents, read at the result buffer, is the last stage:
    each operation's result is its function of the results before it, and a shared intermediate value is one stage. -/
theorem result_stage (m : (ℓ : Loc nD τ sig) → Buf (Elt Ideal) ℓ) (c : Dev nD) :
    after (Cert.ReferenceIdeal.Value.ops (F := Ideal)) (launchContents m c) (Proc.devRef .tc main_v71)
      = val_main_v71 (F := Ideal) (m ((c.tc : Thread nD τ).loc main_arg0)) := by
  after_results_simp
  rfl

set_option maxRecDepth 8192 in
set_option maxHeartbeats 41600000 in
/-- No operation writes the argument. -/
theorem arg_kept (m : (ℓ : Loc nD τ sig) → Buf (Elt Ideal) ℓ) (c : Dev nD) :
    after (Cert.ReferenceIdeal.Value.ops (F := Ideal)) (launchContents m c) (Proc.devRef .tc main_arg0)
      = m ((c.tc : Thread nD τ).loc main_arg0) := by
  after_results_simp <;> rfl

set_option maxRecDepth 8192 in
set_option maxHeartbeats 41600000 in
/-- The reference's run: every weakly fair execution of its straight-line @main terminates, with the result at the
    zero array and the argument kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = (fun _ => (0 : EReal))
      ∧ r.2.mem ((c.tc : Thread nD τ).loc main_arg0) = m ((c.tc : Thread nD τ).loc main_arg0) :=
  (θ_run (defs (F := Ideal)) _ _).mono
    (fun _ h c => ⟨(h c main_v71).trans ((result_stage m c).trans (result_zero _)), (h c main_arg0).trans (arg_kept m c)⟩)
    (run_seq Cert.ReferenceIdeal.Value.scopedRefs_eq Cert.ReferenceIdeal.Value.scopedSems_eq defs main
      (fun _ => Cert.ReferenceIdeal.Value.ops) Cert.ReferenceIdeal.Value.main_eq
      (fun _ => Cert.ReferenceIdeal.Value.ops_sub) m ρ)

end Cert.ReferenceIdeal.ZeroValue

end
-- ==== Proof.lean ====
/-
  The certificate of an integer softmax kernel against its jnp reference, over the extended reals.

  Both programs compute, for each row of a float32[4, 12, 1024, 1024] array, an integer exponential `e ≥ 0` of every
  entry, requantise it to sixteen bits by a ratio of two scales, and normalise by the row sum. The kernel takes the
  ratio as a literal; the reference divides by a multiple of the largest `e` of the whole array. On the extended reals
  the two ratios differ, but both are so small against `e` that `e · ratio` lies in `[0, 1/2)` at every entry
  (`Cert.EntryArith`): the requantised value is `0` everywhere on both sides, the normalisation multiplies by it, and
  both results are the zero array — for every input, finite or not.

  The kernel's frames are the generated ones; the reference's frame is its run with the result dropped. The ideal pass
  rewrote nothing, so `preserves` is trivial. `algebraic`: the kernel program ends with its result at the zero array
  (`Cert.KernelIdeal.ZeroValue.run`: every grid point writes back a zero block, the blocks tile the array, the host
  reshapes it) and the reference program with its result at the zero array (`Cert.ReferenceIdeal.ZeroValue.run`).
-/
import proofs.«177270_j38680475468054_2_alg».proof.Defs
import proofs.«177270_j38680475468054_2_alg».proof.Proof.Gen.Kernel
import proofs.«177270_j38680475468054_2_alg».proof.Proof.Gen.Kernel.Skeleton
import proofs.«177270_j38680475468054_2_alg».proof.Proof.Gen.Kernel.Launch
import proofs.«177270_j38680475468054_2_alg».proof.Proof.Gen.Kernel.Points
import proofs.«177270_j38680475468054_2_alg».proof.Proof.Gen.Kernel.Frame
import proofs.«177270_j38680475468054_2_alg».proof.Proof.Gen.KernelIdeal
import proofs.«177270_j38680475468054_2_alg».proof.Proof.Gen.KernelIdeal.Skeleton
import proofs.«177270_j38680475468054_2_alg».proof.Proof.Gen.KernelIdeal.Launch
import proofs.«177270_j38680475468054_2_alg».proof.Proof.Gen.KernelIdeal.Points
import proofs.«177270_j38680475468054_2_alg».proof.Proof.Gen.KernelIdeal.Frame
import proofs.«177270_j38680475468054_2_alg».proof.Proof.Gen.ReferenceIdeal
import proofs.«177270_j38680475468054_2_alg».proof.Proof.Gen.Pre_finite_inputs
import proofs.«177270_j38680475468054_2_alg».proof.Proof.KernelRun
import proofs.«177270_j38680475468054_2_alg».proof.Proof.RefZero
import Idealize.ShloMosaic.Adequacy
import Idealize.ShloMosaic.Init

noncomputable section

namespace Cert.Proof

open Idealize.ShloMosaic Idealize.SL.Sem Cert.Kernel

/-- The word-level kernel runs and keeps its argument: the generated frame. -/
theorem frame_kernel : Cert.frame_Kernel := fun m ρ _ => Cert.Kernel.Gen.frame m ρ

/-- The idealized kernel runs and keeps its argument: the generated frame. -/
theorem frame_kernelIdeal : Cert.frame_KernelIdeal := fun m ρ _ => Cert.KernelIdeal.Gen.frame m ρ

/-- The idealized reference runs and keeps its argument: its run, the result dropped. -/
theorem frame_referenceIdeal : Cert.frame_ReferenceIdeal := fun m ρ _ =>
  (θ_run Cert.ReferenceIdeal.defs _ _).mono (fun _ h c => (h c).2) (Cert.ReferenceIdeal.ZeroValue.run m ρ)

/-- Both idealized programs end with their result at the zero array and their argument kept. -/
theorem algebraic : Cert.algebraic_KernelIdeal_ReferenceIdeal := fun m ρ m' ρ' _ _ =>
  ⟨fun _ => fun _ => (0 : EReal), Cert.KernelIdeal.ZeroValue.run m ρ, Cert.ReferenceIdeal.ZeroValue.run m' ρ'⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
